-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x512 : Shape := ⟨2, ![512, 512]⟩
abbrev S512 : Shape := ⟨1, ![512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S131072x512 .f32) (main_arg1 : FVec F S512x512 .f32) (main_arg2 : FVec F S512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S131072x512 : Shape := ⟨2, ![131072, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S2048x512 : Shape := ⟨2, ![2048, 512]⟩

abbrev nBuf : Space → Nat
  | .hbm => 16
  | .vmem => 6
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .bf16⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S1x512, .f32⟩
  | .hbm, ⟨15, _⟩ => ⟨S131072x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512x512 : S_.BroadcastsInDim S512x512 (![] : Fin 0 → Fin S512x512.rank)
  transposes_S512x512_S512x512_1_0 : S512x512.Transposes [1, 0] S512x512
  bitsLt_bf16_f32 : FTy.bits .bf16 < FTy.bits .f32
  reducesTo_S512x512_S512_d1 : S512x512.ReducesTo [1] S512
  h_S_ : 0 < S_.numel
  bcast_S_S512 : S_.BroadcastsInDim S512 (![] : Fin 0 → Fin S512.rank)
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .f32 = 32 ∨ (Rect.block (s := S131072x512) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 14
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S131072x512, .f32⟩
  | .hbm, ⟨5, _⟩ => ⟨S131072x512, .f32⟩
  | .hbm, ⟨6, _⟩ => ⟨S_, .f32⟩
  | .hbm, ⟨7, _⟩ => ⟨S131072x512, .f32⟩
  | .hbm, ⟨8, _⟩ => ⟨S131072x512, .f32⟩
  | .hbm, ⟨9, _⟩ => ⟨S131072x512, .f32⟩
  | .hbm, ⟨10, _⟩ => ⟨S1x512, .f32⟩
  | .hbm, ⟨11, _⟩ => ⟨S131072x512, .f32⟩
  | .hbm, ⟨12, _⟩ => ⟨S131072x512, .f32⟩
  | .hbm, ⟨13, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S131072x512 : S_.BroadcastsInDim S131072x512 (![] : Fin 0 → Fin S131072x512.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  dot_S131072x512_S512x512_S131072x512_1_1_0_0_n_n_wf : DotDims.WF S131072x512 S512x512 S131072x512 [1] [1] [0] [0] [] []

variable [Facts₀]

def dot_S131072x512_S512x512_S131072x512_1_1_0_0_n_n : DotDims S131072x512 S512x512 S131072x512 where
  lhsContracting := [1]
  rhsContracting := [1]
  lhsNonContracting := [0]
  rhsNonContracting := [0]
  lhsBatch := []
  rhsBatch := []
  wf := dot_S131072x512_S512x512_S131072x512_1_1_0_0_n_n_wf

class Facts : Prop extends Facts₀ where

variable [Facts]
-- ==== Proof.Phase.lean ====
/-
  The mathematics both programs compute, and the law that joins their two arrangements.

  With x : [131072, 512], θ : [512, 512], φ : [512] and the scale w = 30, output entry (b, o) is the cosine of a
  phase.  One arrangement shifts and scales the data first,
      phase(b, o) = Σ_k ((x[b,k] + 1) · w) · θ[o,k] + φ[o],
  the other folds the shift and the scale into the small parameters once,
      phase(b, o) = Σ_k x[b,k] · (w · θ[o,k]) + (φ[o] + w · (0 + Σ_k θ[o,k])).
  Over the reals the two agree by distributivity: ((x + 1) · w) · θ = x · (w · θ) + w · θ, summed over k.  On the
  extended reals distributivity fails at the infinities, so the law is stated for entries that are reals; that
  is exactly what the precondition (every input finite) provides.
-/
import Idealize.ShloMosaic.PureOps.Ideal
import Idealize.ShloMosaic.PureOps.Ideal.Laws
import Idealize.ShloMosaic.Lib.ValueIdx

noncomputable section

open scoped BigOperators

namespace Cert.Phase

open Idealize.ShloMosaic Idealize.ShloMosaic.ValueIdx

/-! ## The three float literals, as extended reals -/

/-- The pattern of `1.0` denotes the real 1. -/
theorem one_word : Ideal.ofBits .f32 0x3F800000#32 = ((1 : ℝ) : EReal) := by
  simp [Ideal.ofBits, Ideal.ieee, -EReal.coe_mul]; norm_num

/-- The pattern of `30.0` denotes the real 30. -/
theorem thirty_word : Ideal.ofBits .f32 0x41F00000#32 = ((30 : ℝ) : EReal) := by
  simp [Ideal.ofBits, Ideal.ieee, -EReal.coe_mul]; norm_num

/-! ## The law, over the reals inside the extended reals -/

/-- The coercion of a finite sum of reals is the sum of the coercions. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Shift-then-scale against the folded parameters, for real entries: distributivity, summed. -/
theorem shift_law {n : Nat} (x t : Fin n → ℝ) (p c : ℝ) :
    (∑ k, (((x k : EReal) + ((1 : ℝ) : EReal)) * (c : EReal)) * (t k : EReal)) + (p : EReal)
      = (∑ k, (x k : EReal) * ((c : EReal) * (t k : EReal)))
          + ((p : EReal) + (c : EReal) * ((0 : EReal) + ∑ k, (t k : EReal))) := by
  rw [zero_add]
  simp only [← EReal.coe_add, ← EReal.coe_mul, ← coe_sum]
  refine congrArg Real.toEReal ?_
  have h : ∀ k, (x k + 1) * c * t k = x k * (c * t k) + c * t k := fun k => by ring
  simp only [h, Finset.sum_add_distrib, Finset.mul_sum]
  ring

/-! ## The two arrangements at an output entry -/

/-- Shift and scale the data, contract with θ's row, add φ, take the cosine. -/
def shifted (x : (⟨2, ![131072, 512]⟩ : Shape).Idx → EReal) (θ : (⟨2, ![512, 512]⟩ : Shape).Idx → EReal)
    (φ : (⟨1, ![512]⟩ : Shape).Idx → EReal) (b : Fin 131072) (o : Fin 512) : EReal :=
  Ideal.cos ((∑ k : Fin 512, ((x (ix2 b k) + Ideal.ofBits .f32 0x3F800000#32) * Ideal.ofBits .f32 0x41F00000#32) * θ (ix2 o k))
    + φ (ix1 o))

/-- Contract the raw data with the scaled row of θ, add the folded bias, take the cosine. -/
def folded (x : (⟨2, ![131072, 512]⟩ : Shape).Idx → EReal) (θ : (⟨2, ![512, 512]⟩ : Shape).Idx → EReal)
    (φ : (⟨1, ![512]⟩ : Shape).Idx → EReal) (b : Fin 131072) (o : Fin 512) : EReal :=
  Ideal.cos ((∑ k : Fin 512, x (ix2 b k) * (Ideal.ofBits .f32 0x41F00000#32 * θ (ix2 o k)))
    + (φ (ix1 o) + Ideal.ofBits .f32 0x41F00000#32 * (Ideal.ofBits .f32 0x00000000#32 + ∑ k : Fin 512, θ (ix2 o k))))

/-- On real entries the two arrangements are one number. -/
theorem folded_eq_shifted (x : (⟨2, ![131072, 512]⟩ : Shape).Idx → EReal) (θ : (⟨2, ![512, 512]⟩ : Shape).Idx → EReal)
    (φ : (⟨1, ![512]⟩ : Shape).Idx → EReal) (hx : ∀ i, ∃ r : ℝ, x i = r) (hθ : ∀ i, ∃ r : ℝ, θ i = r)
    (hφ : ∀ i, ∃ r : ℝ, φ i = r) (b : Fin 131072) (o : Fin 512) :
    folded x θ φ b o = shifted x θ φ b o := by
  choose xr hxr using hx
  choose tr htr using hθ
  choose pr hpr using hφ
  unfold folded shifted
  simp only [hxr, htr, hpr, one_word, thirty_word, Ideal.ofBits_zero_f32]
  exact congrArg Ideal.cos
    (shift_law (fun k => xr (ix2 b k)) (fun k => tr (ix2 o k)) (pr (ix1 o)) 30).symm

end Cert.Phase

end
-- ==== Proof.Finite.lean ====
/-
  What the precondition says, element by element: every entry of x, θ and φ is a real number.

  The precondition is the conjunction of three tests "all |v| < +∞".  A conjunction of bits is 1 only when each
  is; an all-reduction by "and" is 1 only when every element is; and on the extended reals |v| = max v (-v) lies
  below +∞ exactly when v is neither infinity, that is, when v is a real.
-/
import proofs.«171417_j6270652252794_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-- A rank-zero array has one index. -/
instance : Subsingleton Cert.Pre_finite_inputs.S_.Idx := ⟨fun _ _ => funext fun d => d.elim0⟩

/-- An extended real whose absolute value compares below the pattern of +∞ is a real. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

variable [Cert.Pre_finite_inputs.Facts]

/-- Under the precondition every entry of the three inputs is a real. -/
theorem reals_of_pre (x0 : FVec Ideal Cert.Pre_finite_inputs.S131072x512 .f32)
    (x1 : FVec Ideal Cert.Pre_finite_inputs.S512x512 .f32) (x2 : FVec Ideal Cert.Pre_finite_inputs.S512 .f32)
    (h : Cert.Pre_finite_inputs.fn (F := Ideal) x0 x1 x2 = fun _ => 1#1) :
    (∀ i, ∃ r : ℝ, x0 i = r) ∧ (∀ i, ∃ r : ℝ, x1 i = r) ∧ (∀ i, ∃ r : ℝ, x2 i = r) := by
  have h0 := congrFun h ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

end Cert.Finite

end
-- ==== Proof.RefPhase.lean ====
/-
  The reference program's result, read entry by entry: it is the shifted arrangement.

  Entry (b, o) of the reference's result is the cosine of Σ_k ((x[b,k] + 1) · 30) · θ[o,k] + φ[o]: the contraction
  pairs x's row b with θ's row o, and the bias is φ read along the last axis.
-/
import proofs.«171417_j6270652252794_2_alg».proof.Proof.Gen.ReferenceIdeal.Read
import proofs.«171417_j6270652252794_2_alg».proof.Proof.Phase

noncomputable section

open scoped BigOperators

namespace Cert.RefPhase

open Cert.ReferenceIdeal Cert.ReferenceIdeal.Read Idealize.ShloMosaic Idealize.ShloMosaic.ValueIdx

/-- The reference's last stage at entry (b, o) is the shifted arrangement there. -/
theorem ref_apply (x0 : (⟨S131072x512, .f32⟩ : BufTy).Contents (Elt Ideal)) (x1 : (⟨S512x512, .f32⟩ : BufTy).Contents (Elt Ideal))
    (x2 : (⟨S512, .f32⟩ : BufTy).Contents (Elt Ideal)) (b : Fin 131072) (o : Fin 512) :
    val_main_v8 (F := Ideal) x0 x1 x2 (ix2 b o) = Cert.Phase.shifted x0 x1 x2 b o := by
  have el : ∀ k : Fin 512, lidx_main_v4 (ix2 b o) k = ix2 b k := fun k =>
    funext fun a => Fin.ext (by match a with | ⟨0, _⟩ => rfl | ⟨1, _⟩ => rfl)
  have er : ∀ k : Fin 512, ridx_main_v4 (ix2 b o) k = ix2 o k := fun k =>
    funext fun a => Fin.ext (by match a with | ⟨0, _⟩ => rfl | ⟨1, _⟩ => rfl)
  have eb : idx_main_v5 (idx_main_v6 (ix2 b o)) = ix1 o :=
    funext fun a => Fin.ext (by match a with | ⟨0, _⟩ => rfl)
  rw [val_main_v8_apply, val_main_v7_apply, val_main_v4_apply, val_main_v6_apply, val_main_v5_apply]
  simp only [val_main_v3_apply, val_main_v1_apply, val_main_v0_apply, val_main_v2_apply, val_main_cst_apply,
    val_main_cst_0_apply, el, er, eb]
  rfl

/-- The reference's last stage, as a whole array. -/
theorem ref_eq (x0 : (⟨S131072x512, .f32⟩ : BufTy).Contents (Elt Ideal)) (x1 : (⟨S512x512, .f32⟩ : BufTy).Contents (Elt Ideal))
    (x2 : (⟨S512, .f32⟩ : BufTy).Contents (Elt Ideal)) :
    val_main_v8 (F := Ideal) x0 x1 x2 = fun i => Cert.Phase.shifted x0 x1 x2 (i 0) (i 1) := by
  funext i
  obtain ⟨b, o, rfl⟩ : ∃ (b : Fin 131072) (o : Fin 512), i = ix2 b o := ⟨i 0, i 1, eq_ix2 i⟩
  exact ref_apply x0 x1 x2 b o

end Cert.RefPhase

end
-- ==== Proof.Payload.lean ====
/-
  What the kernel body stores, read entry by entry.

  From a block x0 of 2048 rows of the data, the resident matrix x1 : [512, 512] and the resident row x2 : [1, 512]
  the body stores, at entry (p, q) of its output block, cos (Σ_k x0[p,k] · x1[k,q] + x2[0,q]): a product of the
  block with the matrix accumulated from zero, the row added to every row of the product, then the cosine.  The
  narrowing of the block to 16-bit floats before the product is the identity on extended reals, and so are the two
  casts of a shape to itself.
-/
import proofs.«171417_j6270652252794_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The product's left index keeps the output's row on the uncontracted axis … -/
theorem lhs_row (i : S2048x512.Idx) (r : dot_S2048x512_S512x512_S2048x512_1_0_0_1_n_n.contr.Idx) :
    (dot_S2048x512_S512x512_S2048x512_1_0_0_1_n_n.lhsIdx i r 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
/-- … and runs over the contracted axis on the other. -/
theorem lhs_contr (i : S2048x512.Idx) (r : dot_S2048x512_S512x512_S2048x512_1_0_0_1_n_n.contr.Idx) :
    (dot_S2048x512_S512x512_S2048x512_1_0_0_1_n_n.lhsIdx i r 1).val = (r ⟨0, by decide⟩).val :=
  dot_S2048x512_S512x512_S2048x512_1_0_0_1_n_n.lhsIdx_val_of_single rfl i r
/-- The right index runs over the contracted axis on its first axis … -/
theorem rhs_contr (i : S2048x512.Idx) (r : dot_S2048x512_S512x512_S2048x512_1_0_0_1_n_n.contr.Idx) :
    (dot_S2048x512_S512x512_S2048x512_1_0_0_1_n_n.rhsIdx i r 0).val = (r ⟨0, by decide⟩).val :=
  dot_S2048x512_S512x512_S2048x512_1_0_0_1_n_n.rhsIdx_val_of_single rfl i r
/-- … and keeps the output's column on its second. -/
theorem rhs_col (i : S2048x512.Idx) (r : dot_S2048x512_S512x512_S2048x512_1_0_0_1_n_n.contr.Idx) :
    (dot_S2048x512_S512x512_S2048x512_1_0_0_1_n_n.rhsIdx i r 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The product of a [2048, 512] block with a [512, 512] matrix, accumulated from zero, at entry (p, q): the sum
    over the one contracted axis of the block's row p against the matrix's column q. -/
theorem product_apply (a : FVec Ideal S2048x512 .bf16) (w : FVec Ideal S512x512 .bf16) (p : Fin 2048) (q : Fin 512) :
    matmul (F := Ideal) dot_S2048x512_S512x512_S2048x512_1_0_0_1_n_n none a w (constant S2048x512 .f32 0x00000000#32) (ix2 p q)
      = ∑ k : Fin 512, a (ix2 p k) * w (ix2 k q) := by
  show FloatOps.matmul dot_S2048x512_S512x512_S2048x512_1_0_0_1_n_n none a w (constant S2048x512 .f32 0x00000000#32) (ix2 p q) = _
  rw [Ideal.matmul_constant_zero_apply,
    ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 p q)
      ((ValueIdx.contrEquiv1 dot_S2048x512_S512x512_S2048x512_1_0_0_1_n_n 512 rfl rfl).symm k) = ix2 p k :=
    funext fun a => Fin.ext (by
      match a with
      | ⟨0, _⟩ => exact lhs_row _ _
      | ⟨1, _⟩ => exact (lhs_contr _ _).trans hk)
  have er : dot_S2048x512_S512x512_S2048x512_1_0_0_1_n_n.rhsIdx (ix2 p q)
      ((ValueIdx.contrEquiv1 dot_S2048x512_S512x512_S2048x512_1_0_0_1_n_n 512 rfl rfl).symm k) = ix2 k q :=
    funext fun a => Fin.ext (by
      match a with
      | ⟨0, _⟩ => exact (rhs_contr _ _).trans hk
      | ⟨1, _⟩ => exact rhs_col _ _)
  rw [el, er]

/-- A [1, 512] row broadcast to [2048, 512] reads, at (p, q), the row at (0, q). -/
theorem row_apply (v : FVec Ideal S1x512 .f32) (p : Fin 2048) (q : Fin 512) :
    broadcastTo S2048x512 v broadcasts_S1x512_S2048x512 (ix2 p q) = v (ix2 (0 : Fin 1) q) :=
  broadcastTo_apply v broadcasts_S1x512_S2048x512 (ix2 p q) (ix2 (0 : Fin 1) q) (fun a => by
    match a with
    | ⟨0, _⟩ => show (0 : Nat) = if (1 : Nat) = 1 then 0 else _; rw [if_pos rfl]
    | ⟨1, _⟩ => show q.val = if (512 : Nat) = 1 then 0 else q.val; rw [if_neg (by decide)])

/-- The body's stored value at entry (p, q) of the output block. -/
theorem pay_apply (x0 : Vec Ideal S2048x512 .f32) (x1 : Vec Ideal S512x512 .bf16) (x2 : Vec Ideal S1x512 .f32)
    (p : Fin 2048) (q : Fin 512) :
    k0_pay1 (F := Ideal) x0 x1 x2 (ix2 p q)
      = Ideal.cos ((∑ k : Fin 512, x0 (ix2 p k) * x1 (ix2 k q)) + x2 (ix2 (0 : Fin 1) q)) := by
  unfold k0_pay1
  show Ideal.cos (matmul (F := Ideal) dot_S2048x512_S512x512_S2048x512_1_0_0_1_n_n none (truncf .bf16 x0 bitsLt_bf16_f32)
      (shapeCast S512x512 x1 shapeCasts_S512x512_S512x512) (constant S2048x512 .f32 0x00000000#32) (ix2 p q)
    + broadcastTo S2048x512 (shapeCast S1x512 x2 shapeCasts_S1x512_S1x512) broadcasts_S1x512_S2048x512 (ix2 p q)) = _
  rw [shapeCast_self, shapeCast_self, product_apply, row_apply]
  rfl

end Cert.KernelIdeal.Payload

end
-- ==== Proof.Staged.lean ====
/-
  The two small arrays the host computes before the kernel is launched, read entry by entry.

  The resident matrix is θ scaled by 30 and transposed (its narrowing to 16-bit floats is the identity on extended
  reals): entry (k, o) is 30 · θ[o,k].  The resident row is the folded bias as a one-row matrix: entry (0, o) is
  φ[o] + 30 · (0 + Σ_k θ[o,k]), the inner sum the host's row sum of θ started from zero.
-/
import proofs.«171417_j6270652252794_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Staged

open Cert.KernelIdeal Cert.KernelIdeal.Gen Idealize.ShloMosaic Idealize.ShloMosaic.TcCoe Idealize.SL.Sem
  Idealize.ShloMosaic.StableHlo Idealize.ShloMosaic.ValueIdx

/-! ## The host operations' terms, at any float instance -/

section Terms
variable {F : FTy → Type} [FloatOps F]
variable (m : (ℓ : Loc nD τ sig) → Buf (Elt F) ℓ)

/-- The matrix the region finds in window 1: θ scaled, transposed, narrowed. -/
theorem matrix_eq (c : Dev nD) :
    (V m c main_v3 : FVec F S512x512 .bf16)
      = truncf .bf16 (transpose S512x512 [1, 0]
          (mulf (broadcastInDim S512x512 ![] bcast_S_S512x512 (constant (F := F) S_ .f32 0x41F00000#32))
            (m ((c : Thread nD τ).loc main_arg1))) transposes_S512x512_S512x512_1_0) bitsLt_bf16_f32 := by
  dsimp only [Gen.V, Gen.hostOps0]
  after_results

/-- The row the region finds in window 2: φ plus the scaled row sums of θ, as a one-row matrix. -/
theorem row_eq (c : Dev nD) :
    (V m c main_v8 : FVec F S1x512 .f32)
      = shapeCast S1x512 (addf (m ((c : Thread nD τ).loc main_arg2))
          (mulf (broadcastInDim S512 ![] bcast_S_S512 (constant (F := F) S_ .f32 0x41F00000#32))
            (Host.reduceAdd (m ((c : Thread nD τ).loc main_arg1)) (constant (F := F) S_ .f32 0x00000000#32)
              reducesTo_S512x512_S512_d1 h_S_))) shapeCasts_S512_S1x512 := by
  dsimp only [Gen.V, Gen.hostOps0]
  after_results
  rfl

end Terms

/-! ## The same terms read at an entry, on the extended reals -/

/-- Entry (k, o) of the scaled transpose of θ is 30 · θ[o,k]. -/
theorem matrix_apply (θ : FVec Ideal S512x512 .f32) (k o : Fin 512) :
    (truncf .bf16 (transpose S512x512 [1, 0]
        (mulf (broadcastInDim S512x512 ![] bcast_S_S512x512 (constant (F := Ideal) S_ .f32 0x41F00000#32)) θ)
        transposes_S512x512_S512x512_1_0) bitsLt_bf16_f32 : FVec Ideal S512x512 .bf16) (ix2 k o)
      = Ideal.ofBits .f32 0x41F00000#32 * θ (ix2 o k) := by
  rw [truncf_apply, transpose_ix2_apply, mulf_apply]
  rfl

/-- The host's row sum of θ started from the zero word, at row o. -/
theorem rowsum_apply (θ : FVec Ideal S512x512 .f32) (o : Fin 512) :
    Host.reduceAdd θ (constant (F := Ideal) S_ .f32 0x00000000#32) reducesTo_S512x512_S512_d1 h_S_ (ix1 o)
      = Ideal.ofBits .f32 0x00000000#32 + ∑ k : Fin 512, θ (ix2 o k) := by
  simp only [Host.reduceAdd, Ideal.hostReduceAdd_def]
  rw [Ideal.hostReduceAdd_single reducesTo_S512x512_S512_d1 (by decide)]
  refine congrArg (_ + ·) (Finset.sum_congr rfl fun k _ => ?_)
  exact congrArg θ (funext fun a => Fin.ext (by match a with | ⟨0, _⟩ => rfl | ⟨1, _⟩ => rfl))

/-- Entry (0, o) of the folded bias row is φ[o] + 30 · (0 + Σ_k θ[o,k]). -/
theorem row_apply (θ : FVec Ideal S512x512 .f32) (φ : FVec Ideal S512 .f32) (o : Fin 512) :
    (shapeCast S1x512 (addf φ
        (mulf (broadcastInDim S512 ![] bcast_S_S512 (constant (F := Ideal) S_ .f32 0x41F00000#32))
          (Host.reduceAdd θ (constant (F := Ideal) S_ .f32 0x00000000#32) reducesTo_S512x512_S512_d1 h_S_)))
        shapeCasts_S512_S1x512 : FVec Ideal S1x512 .f32) (ix2 (0 : Fin 1) o)
      = φ (ix1 o) + Ideal.ofBits .f32 0x41F00000#32
          * (Ideal.ofBits .f32 0x00000000#32 + ∑ k : Fin 512, θ (ix2 o k)) := by
  rw [shapeCast_a_1a_apply, addf_apply, mulf_apply, rowsum_apply]
  rfl

end Cert.KernelIdeal.Staged

end
-- ==== Proof.Blocks.lean ====
/-
  From the kernel's blocks to its whole output array.

  The grid has 64 points; point t works on rows 2048·t … 2048·t + 2047.  Its data block is those rows of x, its
  other two blocks are the whole scaled matrix and the whole bias row (their block index is (0, 0) at every
  point), and it writes back those same rows of the output.  So entry (p, q) of what point t writes back is the
  folded arrangement at row 2048·t + p and column q, that is, the block of one whole-array function; and since
  every row lies in exactly the block of the point `row / 2048`, the blocks cover the array and the array ends
  holding that function.
-/
import proofs.«171417_j6270652252794_2_alg».proof.Proof.Gen.KernelIdeal.Value
import proofs.«171417_j6270652252794_2_alg».proof.Proof.Phase
import proofs.«171417_j6270652252794_2_alg».proof.Proof.Payload
import proofs.«171417_j6270652252794_2_alg».proof.Proof.Staged

noncomputable section

open scoped BigOperators

namespace Cert.KernelIdeal.Blocks

open Cert.KernelIdeal Cert.KernelIdeal.Gen Cert.KernelIdeal.Value Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Where each window's block sits at point t, decided over the 64 points: the data and the output move down one
    block of rows per point, the matrix and the bias row stay at the origin. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The output array as one function of the three argument arrays: the folded arrangement at every entry. -/
def result (c : Dev nD) : S131072x512.Idx → EReal := fun i =>
  Cert.Phase.folded (m ((c : Thread nD τ).loc main_arg0)) (m ((c : Thread nD τ).loc main_arg1))
    (m ((c : Thread nD τ).loc main_arg2)) (i 0) (i 1)

/-! ## The three input blocks at point t, read at an entry -/

/-- The data block at point t is rows 2048·t … of x. -/
theorem data_block (c : Dev nD) (t : Fin cfg0.N) (p : Fin 2048) (k : Fin 512) (i : S131072x512.Idx)
    (h0 : (i 0).val = t.val * 2048 + p.val) (h1 : (i 1).val = k.val) :
    (iblk m c 0 t : Vec Ideal S2048x512 .f32) (ix2 p k)
      = (m ((c : Thread nD τ).loc main_arg0) : S131072x512.Idx → EReal) i := by
  obtain ⟨e0, e1, -⟩ := block_positions t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 2048 + 1 * p.val = (i 0).val; omega
  | ⟨1, _⟩ => show win0_0.index t (1 : Fin 2) * 512 + 1 * k.val = (i 1).val; omega

/-- The matrix block at every point is the whole scaled transpose of θ. -/
theorem matrix_block (c : Dev nD) (t : Fin cfg0.N) (k o : Fin 512) :
    (iblk m c 1 t : Vec Ideal S512x512 .bf16) (ix2 k o)
      = Ideal.ofBits .f32 0x41F00000#32 * (m ((c : Thread nD τ).loc main_arg1) : S512x512.Idx → EReal) (ix2 o k) := by
  obtain ⟨-, -, e0, e1, -⟩ := block_positions t
  unfold iblk
  rw [View.read_apply]
  show (V m c main_v3 : FVec Ideal S512x512 .bf16) _ = _
  rw [Staged.matrix_eq m c]
  refine Eq.trans (congrArg _ ?_) (Staged.matrix_apply (m ((c : Thread nD τ).loc main_arg1)) k o)
  funext a
  apply Fin.ext
  match a with
  | ⟨0, _⟩ => show win0_1.index t (0 : Fin 2) * 512 + 1 * k.val = k.val; omega
  | ⟨1, _⟩ => show win0_1.index t (1 : Fin 2) * 512 + 1 * o.val = o.val; omega

/-- The bias block at every point is the whole folded bias row. -/
theorem row_block (c : Dev nD) (t : Fin cfg0.N) (o : Fin 512) (Θ : S512x512.Idx → EReal) (Φ : S512.Idx → EReal)
    (hΘ : Θ = m ((c : Thread nD τ).loc main_arg1)) (hΦ : Φ = m ((c : Thread nD τ).loc main_arg2)) :
    (iblk m c 2 t : Vec Ideal S1x512 .f32) (ix2 (0 : Fin 1) o)
      = Φ (ix1 o) + Ideal.ofBits .f32 0x41F00000#32 * (Ideal.ofBits .f32 0x00000000#32
          + ∑ k : Fin 512, Θ (ix2 o k)) := by
  obtain ⟨-, -, -, -, e0, e1, -⟩ := block_positions t
  subst hΘ hΦ
  unfold iblk
  rw [View.read_apply]
  show (V m c main_v8 : FVec Ideal S1x512 .f32) _ = _
  rw [Staged.row_eq m c]
  refine Eq.trans (congrArg _ ?_)
    (Staged.row_apply (m ((c : Thread nD τ).loc main_arg1)) (m ((c : Thread nD τ).loc main_arg2)) o)
  funext a
  apply Fin.ext
  match a with
  | ⟨0, _⟩ => show win0_2.index t (0 : Fin 2) * 1 + 1 * 0 = 0; omega
  | ⟨1, _⟩ => show win0_2.index t (1 : Fin 2) * 512 + 1 * o.val = o.val; omega

/-! ## What a point writes back -/

/-- The body's stored value at entry (p, q), from blocks that read the arrays as above, is the folded arrangement
    at the array row b those block rows come from. -/
theorem entry_eq (x0 : Vec Ideal S2048x512 .f32) (x1 : Vec Ideal S512x512 .bf16) (x2 : Vec Ideal S1x512 .f32)
    (X : S131072x512.Idx → EReal) (Θ : S512x512.Idx → EReal) (Φ : S512.Idx → EReal)
    (p : Fin 2048) (q : Fin 512) (b : Fin 131072)
    (h0 : ∀ k : Fin 512, x0 (ix2 p k) = X (ix2 b k))
    (h1 : ∀ k : Fin 512, x1 (ix2 k q) = Ideal.ofBits .f32 0x41F00000#32 * Θ (ix2 q k))
    (h2 : x2 (ix2 (0 : Fin 1) q) = Φ (ix1 q) + Ideal.ofBits .f32 0x41F00000#32
      * (Ideal.ofBits .f32 0x00000000#32 + ∑ k : Fin 512, Θ (ix2 q k))) :
    k0_pay1 (F := Ideal) x0 x1 x2 (ix2 p q) = Cert.Phase.folded X Θ Φ b q := by
  rw [Payload.pay_apply, h2]
  unfold Cert.Phase.folded
  simp only [h0, h1]

/-- What point t writes back is block t of `result`. -/
theorem writeback_eq (c : Dev nD) (t : Fin cfg0.N) :
    (dats m 0 c).flushed 3 t = ((cfg0.win 3).blk t).view.read (Elt Ideal) (result m c) := by
  have hN : cfg0.N = 64 := N_0
  have ht : t.val < 64 := hN ▸ t.isLt
  obtain ⟨-, -, -, -, -, -, e0, e1⟩ := block_positions t
  rw [flushed3]
  unfold out0_3
  rw [View.canon_unit_zero origin]
  simp only [View.ld_unit_zero (S := S2048x512) origin, View.ld_unit_zero (S := S512x512) origin,
    View.ld_unit_zero (S := S1x512) origin]
  funext j
  obtain ⟨p, q, rfl⟩ : ∃ (p : Fin 2048) (q : Fin 512), j = ix2 p q := ⟨j 0, j 1, eq_ix2 j⟩
  rw [View.read_apply]
  have hp : p.val < 2048 := p.isLt
  have he : ((cfg0.win 3).blk t).view.emb (ix2 p q)
      = (ix2 (⟨t.val * 2048 + p.val, by omega⟩ : Fin 131072) q : S131072x512.Idx) := by
    funext a
    apply Fin.ext
    match a with
    | ⟨0, _⟩ => show win0_3.index t (0 : Fin 2) * 2048 + 1 * p.val = t.val * 2048 + p.val; omega
    | ⟨1, _⟩ => show win0_3.index t (1 : Fin 2) * 512 + 1 * q.val = q.val; omega
  rw [he]
  show k0_pay1 (F := Ideal) (iblk m c 0 t) (iblk m c 1 t) (iblk m c 2 t) (ix2 p q)
    = Cert.Phase.folded (m ((c : Thread nD τ).loc main_arg0)) (m ((c : Thread nD τ).loc main_arg1))
        (m ((c : Thread nD τ).loc main_arg2)) (⟨t.val * 2048 + p.val, by omega⟩ : Fin 131072) q
  exact entry_eq (iblk m c 0 t) (iblk m c 1 t) (iblk m c 2 t) _ _ _ p q _
    (fun k => data_block m c t p k _ rfl rfl) (fun k => matrix_block m c t k q) (row_block m c t q _ _ rfl rfl)

/-! ## The blocks cover the array -/

/-- An index of the array is in point t's block iff each coordinate is in the block's range on its axis. -/
theorem mem_rows (t : Fin cfg0.N) (i : S131072x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v9).slice (win0_3.rect t)).set ↔ _
  rw [View.set_slice_whole, Rect.mem_set_unit]
  exact Iff.rfl

/-- Row r of the array lies in the block of point r / 2048. -/
theorem rows_covered (i : S131072x512.Idx) :
    ∃ t : Fin cfg0.N, (cfg0.win 3).flush t = true ∧ i ∈ ((cfg0.win 3).blk t).view.set := by
  have hN : cfg0.N = 64 := N_0
  have hi0 : (i 0).val < 131072 := (i 0).isLt
  have hi1 : (i 1).val < 512 := (i 1).isLt
  have hlt : (i 0).val / 2048 < cfg0.N := by rw [hN]; omega
  obtain ⟨-, -, -, -, -, -, e0, e1⟩ := block_positions ⟨(i 0).val / 2048, hlt⟩
  refine ⟨⟨(i 0).val / 2048, hlt⟩, flush0_3 _, ?_⟩
  rw [mem_rows]
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + 2048
    have e0' : win0_3.index ⟨(i 0).val / 2048, hlt⟩ (0 : Fin 2) = (i 0).val / 2048 := e0
    omega
  | ⟨1, _⟩ =>
    show win0_3.index ⟨(i 0).val / 2048, hlt⟩ (1 : Fin 2) * 512 ≤ (i 1).val
      ∧ (i 1).val < win0_3.index ⟨(i 0).val / 2048, hlt⟩ (1 : Fin 2) * 512 + 512
    omega

/-! ## The array after the run, and the run -/

/-- The output array ends holding `result`. -/
theorem array_eq (c : Dev nD) : (dats m 0 c).arrAt 3 cfg0.N = result m c :=
  (dats m 0 c).arrAt_eq_of_cover 3 (result m c) (fun t _ => writeback_eq m c t) rows_covered

/-- The kernel program's run: the output array at `result`, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (array_eq m c), (h c).2⟩) (run_blocks m ρ)

end Cert.KernelIdeal.Blocks

end
-- ==== Proof.lean ====
/-
  A cosine layer, y = cos(((x + 1) · 30) · θᵀ + φ) over x : [131072, 512], θ : [512, 512], φ : [512], computed two ways.

  The reference shifts and scales the data and contracts it with θ:
      y[b,o] = cos (Σ_k ((x[b,k] + 1) · 30) · θ[o,k] + φ[o]).
  The kernel program folds the shift and the scale into the small parameters before its launch — the matrix
  30 · θ transposed, and the bias row φ[o] + 30 · Σ_k θ[o,k] — and each of its 64 grid points then computes, for its
  2048 rows, cos (x · (30 θ)ᵀ + bias):
      y[b,o] = cos (Σ_k x[b,k] · (30 · θ[o,k]) + (φ[o] + 30 · (0 + Σ_k θ[o,k]))).
  On extended reals the narrowing to 16-bit floats is the identity, a product accumulated from zero and a host
  contraction are plain sums, and the two cosines are one function; what is left between the two programs is
  distributivity, ((x + 1) · 30) · θ = x · (30 · θ) + 30 · θ summed over k.  That law fails at the infinities, and
  the precondition — every input finite — is what makes every entry a real so that it holds (Phase.lean for the
  law, Finite.lean for the precondition read entry by entry).

  The kernel program's output array is the folded arrangement at every entry (Payload.lean: the body's stored
  value at an entry; Staged.lean: the two arrays the host prepares; Blocks.lean: each point's write-back is a block
  of one whole-array function, and the blocks cover the array).  The reference's result is the shifted arrangement
  (RefPhase.lean).  The frames of the two kernel programs and the reference's run are the generated modules'.
-/
import proofs.«171417_j6270652252794_2_alg».proof.Defs
import proofs.«171417_j6270652252794_2_alg».proof.Proof.Gen.Kernel
import proofs.«171417_j6270652252794_2_alg».proof.Proof.Gen.Kernel.Frame
import proofs.«171417_j6270652252794_2_alg».proof.Proof.Gen.KernelIdeal
import proofs.«171417_j6270652252794_2_alg».proof.Proof.Gen.KernelIdeal.Frame
import proofs.«171417_j6270652252794_2_alg».proof.Proof.Gen.KernelIdeal.Value
import proofs.«171417_j6270652252794_2_alg».proof.Proof.Gen.ReferenceIdeal
import proofs.«171417_j6270652252794_2_alg».proof.Proof.Gen.ReferenceIdeal.Run
import proofs.«171417_j6270652252794_2_alg».proof.Proof.Gen.ReferenceIdeal.Read
import proofs.«171417_j6270652252794_2_alg».proof.Proof.Gen.Pre_finite_inputs
import proofs.«171417_j6270652252794_2_alg».proof.Proof.Phase
import proofs.«171417_j6270652252794_2_alg».proof.Proof.Finite
import proofs.«171417_j6270652252794_2_alg».proof.Proof.RefPhase
import proofs.«171417_j6270652252794_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the folded arrangement of the kernel's arguments in their result: the kernel program
    by its blocks, the reference because its shifted arrangement is the folded one on real entries, which the
    precondition gives. -/
theorem algebraic : Cert.algebraic_KernelIdeal_ReferenceIdeal := by
  intro m ρ m' ρ' hpre hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hθ, hφ⟩ := Cert.Finite.reals_of_pre _ _ _ (hpre c)
  rw [(hagree c).1, (hagree c).2.1, (hagree c).2.2]
  exact (Cert.ReferenceIdeal.Read.val_main_v8_eq _ _ _).trans ((Cert.RefPhase.ref_eq _ _ _).trans
    (funext fun i => (Cert.Phase.folded_eq_shifted _ _ _ hx hθ hφ (i 0) (i 1)).symm))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
